-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024x2 : Shape := ⟨3, ![1024, 1024, 2]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024x2 : S_.BroadcastsInDim S1024x1024x2 (![] : Fin 0 → Fin S1024x1024x2.rank)
  reducesTo_S1024x1024x2_S_d0_1_2 : S1024x1024x2.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S32768x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S32768x1024 .f32 := Host.absf main_arg4
  let main_cst_6 : FVec F S_ .f32 := constant S_ .f32 0x7F800000#32
  let main_v20 : FVec F S32768x1024 .f32 := broadcastInDim S32768x1024 ![] bcast_S_S32768x1024 main_cst_6
  let main_v21 : IVec S32768x1024 1 := cmpf .olt main_v19 main_v20
  let main_c_7 : IVec S_ 1 := constantI S_ 1 1#1
  let main_v22 : IVec S_ 1 := (fun x v => Host.reduce IntOp.andi x v reducesTo_S32768x1024_S_d0_1 h_S_) main_v21 main_c_7
  let main_v23 : IVec S_ 1 := andi main_v18 main_v22
  main_v23

def fn {F : FTy → Type} [FloatOps F] (main_arg0 : FVec F S32768x1024 .f32) (main_arg1 : FVec F S1024x1024x2 .f32) (main_arg2 : FVec F S1024 .f32) (main_arg3 : FVec F S1024 .f32) (main_arg4 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024x2 .f32 := Host.absf main_arg1
  let main_cst_0 : FVec F S_ .f32 := constant S_ .f32 0x7F800000#32
  let main_v5 : FVec F S1024x1024x2 .f32 := broadcastInDim S1024x1024x2 ![] bcast_S_S1024x1024x2 main_cst_0
  let main_v6 : IVec S1024x1024x2 1 := cmpf .olt main_v4 main_v5
  let main_c_1 : IVec S_ 1 := constantI S_ 1 1#1
  let main_v7 : IVec S_ 1 := (fun x v => Host.reduce IntOp.andi x v reducesTo_S1024x1024x2_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S32768x1024 : Shape := ⟨2, ![32768, 1024]⟩
abbrev S1024x1024x2 : Shape := ⟨3, ![1024, 1024, 2]⟩
abbrev S1024 : Shape := ⟨1, ![1024]⟩
abbrev S_ : Shape := ⟨0, ![]⟩
abbrev S1024x1024x1 : Shape := ⟨3, ![1024, 1024, 1]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 33
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x1024x2, .f32⟩
  | .hbm, ⟨2, _⟩ => ⟨S1024, .f32⟩
  | .hbm, ⟨3, _⟩ => ⟨S1024, .f32⟩
  | .hbm, ⟨4, _⟩ => ⟨S32768x1024, .f32⟩
  | .hbm, ⟨5, _⟩ => ⟨S1024x1024x2, .f32⟩
  | .hbm, ⟨6, _⟩ => ⟨S1024x1024x2, .f32⟩
  | .hbm, ⟨7, _⟩ => ⟨S_, .f32⟩
  | .hbm, ⟨8, _⟩ => ⟨S1024x1024x2, .f32⟩
  | .hbm, ⟨9, _⟩ => ⟨S1024x1024x2, .f32⟩
  | .hbm, ⟨10, _⟩ => ⟨S_, .f32⟩
  | .hbm, ⟨11, _⟩ => ⟨S1024x1024x2, .f32⟩
  | .hbm, ⟨12, _⟩ => ⟨S1024x1024x2, .f32⟩
  | .hbm, ⟨13, _⟩ => ⟨S1024x1024x1, .f32⟩
  | .hbm, ⟨14, _⟩ => ⟨S1024x1024, .f32⟩
  | .hbm, ⟨15, _⟩ => ⟨S1024x1024x1, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S1024x1024, .bf16⟩
  | .hbm, ⟨30, _⟩ => ⟨S1x1024, .f32⟩
  | .hbm, ⟨31, _⟩ => ⟨S1x1024, .f32⟩
  | .hbm, ⟨32, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1024x1024x2 : S_.BroadcastsInDim S1024x1024x2 (![] : Fin 0 → Fin S1024x1024x2.rank)
  slices_S1024x1024x2_S1024x1024x1_0_0_0 : S1024x1024x2.Slices ![0, 0, 0] S1024x1024x1
  shapeCasts_S1024x1024x1_S1024x1024 : S1024x1024x1.ShapeCasts S1024x1024
  slices_S1024x1024x2_S1024x1024x1_0_0_1 : S1024x1024x2.Slices ![0, 0, 1] S1024x1024x1
  bcast_S_S1024x1024 : S_.BroadcastsInDim S1024x1024 (![] : Fin 0 → Fin S1024x1024.rank)
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x1024.size a
  hwx0_3 : ∀ i : grid0.Coords, EltTy.bits .f32 = 32 ∨ (Rect.block (s := S32768x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024x2 : Shape := ⟨3, ![1024, 1024, 2]⟩
abbrev S1024 : Shape := ⟨1, ![1024]⟩
abbrev S_ : Shape := ⟨0, ![]⟩
abbrev S1024x1024x1 : Shape := ⟨3, ![1024, 1024, 1]⟩
abbrev S1024x1024 : Shape := ⟨2, ![1024, 1024]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024x2, .f32⟩
  | .hbm, ⟨2, _⟩ => ⟨S1024, .f32⟩
  | .hbm, ⟨3, _⟩ => ⟨S1024, .f32⟩
  | .hbm, ⟨4, _⟩ => ⟨S32768x1024, .f32⟩
  | .hbm, ⟨5, _⟩ => ⟨S1024x1024x2, .f32⟩
  | .hbm, ⟨6, _⟩ => ⟨S1024x1024x2, .f32⟩
  | .hbm, ⟨7, _⟩ => ⟨S_, .f32⟩
  | .hbm, ⟨8, _⟩ => ⟨S1024x1024x2, .f32⟩
  | .hbm, ⟨9, _⟩ => ⟨S1024x1024x2, .f32⟩
  | .hbm, ⟨10, _⟩ => ⟨S_, .f32⟩
  | .hbm, ⟨11, _⟩ => ⟨S1024x1024x2, .f32⟩
  | .hbm, ⟨12, _⟩ => ⟨S1024x1024x2, .f32⟩
  | .hbm, ⟨13, _⟩ => ⟨S1024x1024x1, .f32⟩
  | .hbm, ⟨14, _⟩ => ⟨S1024x1024, .f32⟩
  | .hbm, ⟨15, _⟩ => ⟨S1024x1024x1, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  bcast_S_S1024x1024x2 : S_.BroadcastsInDim S1024x1024x2 (![] : Fin 0 → Fin S1024x1024x2.rank)
  slices_S1024x1024x2_S1024x1024x1_0_0_0 : S1024x1024x2.Slices ![0, 0, 0] S1024x1024x1
  shapeCasts_S1024x1024x1_S1024x1024 : S1024x1024x1.ShapeCasts S1024x1024
  slices_S1024x1024x2_S1024x1024x1_0_0_1 : S1024x1024x2.Slices ![0, 0, 1] S1024x1024x1
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.FiniteInputs.lean ====
/-
  From the precondition to real entries.

  The precondition is the conjunction, over the five argument arrays, of "every entry's absolute value is below
  plus infinity".  On the extended reals the absolute value is `max x (-x)`, which is plus infinity at both
  infinities, so an entry that passes the comparison is a real number.  Only the token array and the weight
  logits are needed: they are what the row variance is built from.
-/
import proofs.«167246_j36369783063105_2_alg».proof.Proof.Gen.Pre_finite_inputs
import Idealize.ShloMosaic.Lib.ReduceAll
import Idealize.ShloMosaic.Lib.IdealHost

noncomputable section

namespace Cert.Ternary.Finite

open Cert.Pre_finite_inputs Cert.Pre_finite_inputs.Gen Idealize.ShloMosaic

/-- The rank-0 shape has one index. -/
instance : Subsingleton S_.Idx := ⟨fun a b => funext fun d => d.elim0⟩

/-- The pattern `0x7F800000` denotes plus infinity. -/
theorem ofBits_inf : Ideal.ofBits .f32 0x7F800000#32 = ⊤ := by
  simp [Ideal.ofBits, Ideal.ieee]

/-- An extended real whose absolute value compares below plus infinity is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- One conjunct of the precondition, at one entry: the comparison of that entry's absolute value with the
    broadcast infinity came out true, so the entry is a real. -/
theorem real_of_all {s : Shape} (x : FVec Ideal s .f32) (hb : S_.BroadcastsInDim s (![] : Fin 0 → Fin s.rank))
    {axes : List (Fin s.rank)} (h : s.ReducesTo axes S_) (hu : 0 < S_.numel)
    (e : Host.reduce IntOp.andi (cmpf .olt (Host.absf x) (broadcastInDim s ![] hb (constant (F := Ideal) S_ .f32 0x7F800000#32)))
          (constantI S_ 1 1#1) h hu ValueIdx.ix0 = 1#1) (i : s.Idx) : ∃ r : ℝ, x i = (r : EReal) := by
  have hi := Host.reduce_andi_all _ _ h hu ValueIdx.ix0 e i
  refine real_of_abs_lt (x i) ?_
  have hc : broadcastInDim s ![] hb (constant (F := Ideal) S_ .f32 0x7F800000#32) i = Ideal.ofBits .f32 0x7F800000#32 :=
    ValueIdx.broadcastInDim_scalar_apply hb _ i
  have : Ideal.cmp .olt (max (x i) (-(x i))) (broadcastInDim s ![] hb (constant (F := Ideal) S_ .f32 0x7F800000#32) i) = 1#1 := hi
  rwa [hc] at this

/-- THE TWO ARRAYS THE VARIANCE IS BUILT FROM HOLD REALS, under the precondition. -/
theorem reals (x0 : FVec Ideal S32768x1024 .f32) (x1 : FVec Ideal S1024x1024x2 .f32) (x2 x3 : FVec Ideal S1024 .f32)
    (x4 : FVec Ideal S32768x1024 .f32) (h : fn (F := Ideal) x0 x1 x2 x3 x4 = fun _ => 1#1) :
    (∀ i, ∃ r : ℝ, x0 i = (r : EReal)) ∧ (∀ i, ∃ r : ℝ, x1 i = (r : EReal)) := by
  have h0 := congrFun h ValueIdx.ix0
  dsimp only [fn, fn_part1] at h0
  obtain ⟨h1, -⟩ := IntOp.andi_eq_one.mp h0
  obtain ⟨h2, -⟩ := IntOp.andi_eq_one.mp h1
  obtain ⟨h3, -⟩ := IntOp.andi_eq_one.mp h2
  obtain ⟨ha, hb⟩ := IntOp.andi_eq_one.mp h3
  exact ⟨real_of_all x0 _ _ _ ha, real_of_all x1 _ _ _ hb⟩

end Cert.Ternary.Finite

end
-- ==== Proof.TernaryMath.lean ====
/-
  The arithmetic of the ternary-linear layer on the extended reals.

  Both programs form, per weight, a magnitude probability and a sign probability by the logistic
  function spelt `1 / (1 + exp (-w))`, and from them a mean `p * s` and a variance
  `p - (p * p) * (s * s)` with `s = 2 * q - 1`.  For a REAL logit the logistic value is a real strictly
  between 0 and 1, so `s` lies strictly between -1 and 1, `s * s ≤ 1`, and the variance
  `p * (1 - p * (s * s))` is a real that is not negative.  A sum of squares of reals weighted by
  such variances is therefore not negative either, and on a value that is not negative the clamp
  `max v 0` is the identity: this is the one law that separates the two programs, whose only
  difference is that clamp under the square root.
-/
import Idealize.ShloMosaic.PureOps.Ideal
import Idealize.ShloMosaic.Lib.IdealHost

noncomputable section

namespace Cert.Ternary

open Idealize.ShloMosaic

/-- The pattern `0x40000000` denotes the real 2. -/
theorem ofBits_two : Ideal.ofBits .f32 0x40000000#32 = ((2 : ℝ) : EReal) := by
  simp [Ideal.ofBits, Ideal.ieee, -EReal.coe_mul]; norm_num

/-- The logistic function as both programs spell it: one over one plus the exponential of the negated logit. -/
def prob (w : EReal) : EReal :=
  Ideal.div (Ideal.ofBits .f32 0x3F800000#32) (Ideal.ofBits .f32 0x3F800000#32 + Ideal.exp (-w))

/-- The sign factor `2 * q - 1` of a sign probability `q`. -/
def sgn (w : EReal) : EReal :=
  Ideal.ofBits .f32 0x40000000#32 * prob w - Ideal.ofBits .f32 0x3F800000#32

/-- The weight's variance `p - (p * p) * (s * s)` from its two logits. -/
def wVar (w0 w1 : EReal) : EReal :=
  prob w0 - (prob w0 * prob w0) * (sgn w1 * sgn w1)

/-- At a real logit the logistic value is the real `1 / (1 + e^(-r))`. -/
theorem prob_coe (r : ℝ) : prob (r : EReal) = ((1 / (1 + Real.exp (-r)) : ℝ) : EReal) := by
  have hpos : (1 + Real.exp (-r) : ℝ) ≠ 0 := by positivity
  unfold prob
  rw [Ideal.ofBits_one_f32, ← EReal.coe_neg, Ideal.exp_coe, ← EReal.coe_one, ← EReal.coe_add,
    Ideal.div_coe hpos, ← EReal.coe_mul, one_mul]

/-- … which lies strictly between 0 and 1. -/
theorem prob_mem (r : ℝ) : ∃ p : ℝ, 0 < p ∧ p < 1 ∧ prob (r : EReal) = (p : EReal) := by
  have he : 0 < Real.exp (-r) := Real.exp_pos _
  refine ⟨1 / (1 + Real.exp (-r)), by positivity, ?_, prob_coe r⟩
  rw [div_lt_one (by positivity)]; linarith

/-- At real logits the variance is a real that is not negative: `p * (1 - p * s²)` with `0 < p < 1` and `s² ≤ 1`. -/
theorem wVar_coe (r0 r1 : ℝ) : ∃ v : ℝ, 0 ≤ v ∧ wVar (r0 : EReal) (r1 : EReal) = (v : EReal) := by
  obtain ⟨p, hp0, hp1, hp⟩ := prob_mem r0
  obtain ⟨q, hq0, hq1, hq⟩ := prob_mem r1
  refine ⟨p - (p * p) * ((2 * q - 1) * (2 * q - 1)), ?_, ?_⟩
  · have hs : (2 * q - 1) * (2 * q - 1) ≤ 1 := by nlinarith
    have h1 : p * p ≤ p := by nlinarith
    have h2 : (p * p) * ((2 * q - 1) * (2 * q - 1)) ≤ (p * p) * 1 :=
      mul_le_mul_of_nonneg_left hs (by positivity)
    linarith
  · unfold wVar sgn
    rw [hp, hq, ofBits_two, Ideal.ofBits_one_f32, ← EReal.coe_one]
    simp only [← EReal.coe_mul, ← EReal.coe_sub]

/-- A sum over one row of squares of reals weighted by values that are not negative is not negative. -/
theorem var_nonneg {ι : Type} [Fintype ι] (xrow wv : ι → EReal) (hx : ∀ k, ∃ r : ℝ, xrow k = (r : EReal))
    (hv : ∀ k, ∃ v : ℝ, 0 ≤ v ∧ wv k = (v : EReal)) : 0 ≤ ∑ k, (xrow k * xrow k) * wv k := by
  refine Finset.sum_nonneg fun k _ => ?_
  obtain ⟨r, hr⟩ := hx k
  obtain ⟨v, hv0, hv⟩ := hv k
  rw [hr, hv, ← EReal.coe_mul, ← EReal.coe_mul]
  exact EReal.coe_nonneg.mpr (mul_nonneg (mul_self_nonneg r) hv0)

/-- One entry of the layer's result from one row of inputs `xrow`, one row each of weight means and variances, the
    entry's noise, and the column's scale and shift: `(Σ x·μ + sqrt (max (Σ x²·σ²) 0) · noise) · scale + shift`. -/
def out (xrow wm wv : Fin 1024 → EReal) (nz sc sh : EReal) : EReal :=
  ((∑ k, xrow k * wm k) + Ideal.sqrt (max (∑ k, (xrow k * xrow k) * wv k) 0) * nz) * sc + sh

/-- Where the row variance is not negative the clamp under the root does nothing. -/
theorem out_of_nonneg (xrow wm wv : Fin 1024 → EReal) (nz sc sh : EReal)
    (h : 0 ≤ ∑ k, (xrow k * xrow k) * wv k) :
    out xrow wm wv nz sc sh
      = ((∑ k, xrow k * wm k) + Ideal.sqrt (∑ k, (xrow k * xrow k) * wv k) * nz) * sc + sh := by
  unfold out; rw [max_eq_left h]

open Idealize.ShloMosaic.ValueIdx in
/-- The layer's whole result, index by index, as ONE function of the arrays it is computed from: the inputs `x`
    (tokens × input features), the weight means `wm` and variances `wv` (output features × input features), the
    noise `nz` (tokens × output features) and the per-output-feature `sc` and `sh`.  Entry `(n, o)` depends on row `n` of `x`,
    rows `o` of `wm` and `wv`, entry `(n, o)` of the noise and entries `o` of scale and shift. -/
def G (x : (⟨2, ![32768, 1024]⟩ : Shape).Idx → EReal) (wm wv : (⟨2, ![1024, 1024]⟩ : Shape).Idx → EReal)
    (nz : (⟨2, ![32768, 1024]⟩ : Shape).Idx → EReal) (sc sh : (⟨1, ![1024]⟩ : Shape).Idx → EReal) :
    (⟨2, ![32768, 1024]⟩ : Shape).Idx → EReal := fun i =>
  out (fun k => x (ix2 (n0 := 32768) (n1 := 1024) ⟨(i 0).val, (i 0).isLt⟩ k))
    (fun k => wm (ix2 (n0 := 1024) (n1 := 1024) ⟨(i 1).val, (i 1).isLt⟩ k))
    (fun k => wv (ix2 (n0 := 1024) (n1 := 1024) ⟨(i 1).val, (i 1).isLt⟩ k))
    (nz i) (sc (ix1 (n := 1024) ⟨(i 1).val, (i 1).isLt⟩)) (sh (ix1 (n := 1024) ⟨(i 1).val, (i 1).isLt⟩))

open Idealize.ShloMosaic.ValueIdx in
/-- `G` at an index given by its two coordinates. -/
theorem G_ix2 (x : (⟨2, ![32768, 1024]⟩ : Shape).Idx → EReal) (wm wv : (⟨2, ![1024, 1024]⟩ : Shape).Idx → EReal)
    (nz : (⟨2, ![32768, 1024]⟩ : Shape).Idx → EReal) (sc sh : (⟨1, ![1024]⟩ : Shape).Idx → EReal)
    (n : Fin 32768) (o : Fin 1024) :
    G x wm wv nz sc sh (ix2 n o)
      = out (fun k => x (ix2 n k)) (fun k => wm (ix2 o k)) (fun k => wv (ix2 o k)) (nz (ix2 n o)) (sc (ix1 o)) (sh (ix1 o)) := rfl

end Cert.Ternary

end
-- ==== Proof.KernelPayload.lean ====
/-
  The kernel body's stored value read at one index.

  The body multiplies its block of 512 token rows twice against a whole weight matrix, contracting the
  input-feature axis of both operands — once the rows themselves against the weight means, once their
  squares against the weight variances — each into a zero accumulator, so at the extended reals each
  product at `(p, q)` is the plain sum over the 1024 input features of row `p` times weight row `q`.
  The roundings to the narrower float format on the way into the products are the identity here.  The
  rest is pointwise: clamp the variance sum at zero, take the root, multiply by the noise, add the mean,
  then scale and shift by the one-row arrays, which are laid along every row.
-/
import proofs.«167246_j36369783063105_2_alg».proof.Proof.Gen.KernelIdeal.Skeleton
import proofs.«167246_j36369783063105_2_alg».proof.Proof.TernaryMath
import Idealize.ShloMosaic.Lib.ValueIdx
import Idealize.ShloMosaic.Lib.ValueLayout
import Idealize.ShloMosaic.Lib.Pipeline.Value
import Idealize.ShloMosaic.PureOps.Ideal.Laws

noncomputable section

namespace Cert.Ternary.Kernel

open Cert.KernelIdeal Cert.KernelIdeal.Gen Idealize.ShloMosaic Idealize.ShloMosaic.ValueIdx

/-- The left operand's index of the product at output `i` and contraction index `c` keeps the output's row. -/
theorem lhs_row (i : S512x1024.Idx) (c : dot_S512x1024_S1024x1024_S512x1024_1_1_0_0_n_n.contr.Idx) :
    (dot_S512x1024_S1024x1024_S512x1024_1_1_0_0_n_n.lhsIdx i c 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

/-- The right operand's index takes the output's COLUMN as its row: the weight matrix is contracted along its second axis. -/
theorem rhs_row (i : S512x1024.Idx) (c : dot_S512x1024_S1024x1024_S512x1024_1_1_0_0_n_n.contr.Idx) :
    (dot_S512x1024_S1024x1024_S512x1024_1_1_0_0_n_n.rhsIdx i c 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-- The body's matrix product into zeros at `(p, q)`: the sum over the input features `k` of the left block at
    `(p, k)` times the right matrix at `(q, k)`. -/
theorem mm_apply (l : FVec Ideal S512x1024 .bf16) (r : FVec Ideal S1024x1024 .bf16) (p : Fin 512) (q : Fin 1024) :
    matmul dot_S512x1024_S1024x1024_S512x1024_1_1_0_0_n_n none l r (constant S512x1024 .f32 0x00000000#32) (ix2 p q)
      = ∑ k : Fin 1024, l (ix2 p k) * r (ix2 q k) := by
  simp only [matmul]
  rw [Ideal.matmul_constant_zero_apply,
    ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q)
      ((contrEquiv1 dot_S512x1024_S1024x1024_S512x1024_1_1_0_0_n_n 1024 rfl rfl).symm k) = ix2 p k :=
    funext fun a => Fin.ext (by
      match a with
      | ⟨0, _⟩ => exact lhs_row _ _
      | ⟨1, _⟩ => exact (dot_S512x1024_S1024x1024_S512x1024_1_1_0_0_n_n.lhsIdx_val_of_single rfl _ _).trans hk)
  have er : dot_S512x1024_S1024x1024_S512x1024_1_1_0_0_n_n.rhsIdx (ix2 p q)
      ((contrEquiv1 dot_S512x1024_S1024x1024_S512x1024_1_1_0_0_n_n 1024 rfl rfl).symm k) = ix2 q k :=
    funext fun a => Fin.ext (by
      match a with
      | ⟨0, _⟩ => exact rhs_row _ _
      | ⟨1, _⟩ => exact (dot_S512x1024_S1024x1024_S512x1024_1_1_0_0_n_n.rhsIdx_val_of_single rfl _ _).trans hk)
  rw [el, er]

/-- The root of a vector at an index. -/
theorem sqrt_apply {s : Shape} {φ : FTy} (a : FVec Ideal s φ) (i : s.Idx) : sqrt a i = Ideal.sqrt (a i) := rfl

/-- THE PAYLOAD AT `(p, q)` of the stored block, from the six loaded blocks: the layer's entry formula on row `p` of
    the token block, rows `q` of the two weight matrices, the noise at `(p, q)` and the one-row scale and shift at `q`. -/
theorem pay_apply (x0 : Vec Ideal S512x1024 .f32) (x1 x2 : Vec Ideal S1024x1024 .bf16) (x3 : Vec Ideal S512x1024 .f32)
    (x4 x5 : Vec Ideal S1x1024 .f32) (p : Fin 512) (q : Fin 1024) :
    k0_pay1 x0 x1 x2 x3 x4 x5 (ix2 p q)
      = out (fun k => x0 (ix2 p k)) (fun k => x1 (ix2 q k)) (fun k => x2 (ix2 q k)) (x3 (ix2 p q))
          (x4 (ix2 (0 : Fin 1) q)) (x5 (ix2 (0 : Fin 1) q)) := by
  unfold k0_pay1
  simp only [addf_apply, mulf_apply, maximumf_apply, sqrt_apply, broadcast_apply]
  rw [mm_apply, mm_apply, shapeCast_self, shapeCast_self, shapeCast_self, shapeCast_self,
    broadcastTo_1b_ab_apply, broadcastTo_1b_ab_apply, Ideal.ofBits_def, Ideal.ofBits_zero_f32]
  rfl

end Cert.Ternary.Kernel

end
-- ==== Proof.KernelWindows.lean ====
/-
  What the kernel's seven windows read, index by index.

  The grid has 64 points; point `t` works on token rows `512 t … 512 t + 511`.  The token window, the noise
  window and the output window move with the point along the rows (block index `(t, 0)`, blocks of 512 rows and all
  1024 columns), so entry `(p, k)` of their block at `t` is entry `(512 t + p, k)` of the array.  The two weight
  matrices and the one-row scale and shift are whole-array windows that never move (block index `(0, 0)`).

  The arrays behind the windows: tokens and noise are arguments, untouched before the region.  The two weight
  matrices are written by the host operations before the region — the same operations, in the same order, as the
  reference's, followed by a rounding to the narrower float format that is the identity on the extended reals — so
  they ARE the reference's two weight matrices of the logits argument.  Scale and shift are the two vector
  arguments recast as one-row matrices.
-/
import proofs.«167246_j36369783063105_2_alg».proof.Proof.Gen.KernelIdeal.Frame
import proofs.«167246_j36369783063105_2_alg».proof.Proof.Gen.ReferenceIdeal.Read
import Idealize.ShloMosaic.Lib.StableHlo.Run
import Idealize.ShloMosaic.Lib.ValueLayout

noncomputable section

namespace Cert.Ternary.KernelWindows

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arrays the host operations wrote before the region -/

/-- The weight-mean window's array is the reference's weight-mean matrix of the logits argument. -/
theorem V_wmean (c : Dev nD) :
    (V m c main_v19 : S1024x1024.Idx → EReal)
      = Cert.ReferenceIdeal.Read.val_main_v14 (F := Ideal) (m ((c : Thread nD τ).loc main_arg1)) := by
  dsimp only [V, hostOps0]; after_results; rfl

/-- The weight-variance window's array is the reference's weight-variance matrix of the logits argument. -/
theorem V_wvar (c : Dev nD) :
    (V m c main_v20 : S1024x1024.Idx → EReal)
      = Cert.ReferenceIdeal.Read.val_main_v18 (F := Ideal) (m ((c : Thread nD τ).loc main_arg1)) := by
  dsimp only [V, hostOps0]; after_results; rfl

/-- The scale window's array is the scale argument recast as one row. -/
theorem V_scale (c : Dev nD) :
    (V m c main_v21 : S1x1024.Idx → EReal)
      = shapeCast S1x1024 (m ((c : Thread nD τ).loc main_arg2)) shapeCasts_S1024_S1x1024 := by
  dsimp only [V, hostOps0]; after_results; rfl

/-- The shift window's array is the shift argument recast as one row. -/
theorem V_shift (c : Dev nD) :
    (V m c main_v22 : S1x1024.Idx → EReal)
      = shapeCast S1x1024 (m ((c : Thread nD τ).loc main_arg3)) shapeCasts_S1024_S1x1024 := by
  dsimp only [V, hostOps0]; after_results; rfl

/-! ## Where each window's block sits at a point -/

/-- The windows that move with the point have block index `(t, 0)`. -/
theorem idx_moving : ∀ t : Fin cfg0.N,
    win0_0.index t (0 : Fin 2) = t.val ∧ win0_0.index t (1 : Fin 2) = 0
    ∧ win0_3.index t (0 : Fin 2) = t.val ∧ win0_3.index t (1 : Fin 2) = 0
    ∧ win0_6.index t (0 : Fin 2) = t.val ∧ win0_6.index t (1 : Fin 2) = 0 :=
  (by decide +kernel : ∀ t : Fin grid0.N, _)

/-- The whole-array windows have block index `(0, 0)` at every point. -/
theorem idx_fixed : ∀ t : Fin cfg0.N,
    win0_1.index t (0 : Fin 2) = 0 ∧ win0_1.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Token row `512 t + p`: row `p` of point `t`'s block. -/
def row (t : Fin cfg0.N) (p : Fin 512) : Fin 32768 :=
  ⟨t.val * 512 + p.val, by have ht : t.val < 64 := t.isLt; have hp := p.isLt; omega⟩

theorem emb_tok (t : Fin cfg0.N) (p : Fin 512) (k : Fin 1024) :
    ((cfg0.win 0).blk t).view.emb (ix2 p k) = ix2 (row t p) k := by
  obtain ⟨e0, e1, -⟩ := idx_moving t
  funext a; apply Fin.ext
  match a with
  | ⟨0, _⟩ => show win0_0.index t (0 : Fin 2) * 512 + 1 * p.val = t.val * 512 + p.val; omega
  | ⟨1, _⟩ => show win0_0.index t (1 : Fin 2) * 1024 + 1 * k.val = k.val; omega

theorem emb_noise (t : Fin cfg0.N) (p : Fin 512) (q : Fin 1024) :
    ((cfg0.win 3).blk t).view.emb (ix2 p q) = ix2 (row t p) q := by
  obtain ⟨-, -, e0, e1, -⟩ := idx_moving t
  funext a; apply Fin.ext
  match a with
  | ⟨0, _⟩ => show win0_3.index t (0 : Fin 2) * 512 + 1 * p.val = t.val * 512 + p.val; omega
  | ⟨1, _⟩ => show win0_3.index t (1 : Fin 2) * 1024 + 1 * q.val = q.val; omega

theorem emb_out (t : Fin cfg0.N) (p : Fin 512) (q : Fin 1024) :
    ((cfg0.win 6).blk t).view.emb (ix2 p q) = ix2 (row t p) q := by
  obtain ⟨-, -, -, -, e0, e1⟩ := idx_moving t
  funext a; apply Fin.ext
  match a with
  | ⟨0, _⟩ => show win0_6.index t (0 : Fin 2) * 512 + 1 * p.val = t.val * 512 + p.val; omega
  | ⟨1, _⟩ => show win0_6.index t (1 : Fin 2) * 1024 + 1 * q.val = q.val; omega

theorem emb_wmean (t : Fin cfg0.N) (q k : Fin 1024) :
    ((cfg0.win 1).blk t).view.emb (ix2 q k) = ix2 q k := by
  obtain ⟨e0, e1, -⟩ := idx_fixed t
  funext a; apply Fin.ext
  match a with
  | ⟨0, _⟩ => show win0_1.index t (0 : Fin 2) * 1024 + 1 * q.val = q.val; omega
  | ⟨1, _⟩ => show win0_1.index t (1 : Fin 2) * 1024 + 1 * k.val = k.val; omega

theorem emb_wvar (t : Fin cfg0.N) (q k : Fin 1024) :
    ((cfg0.win 2).blk t).view.emb (ix2 q k) = ix2 q k := by
  obtain ⟨-, -, e0, e1, -⟩ := idx_fixed t
  funext a; apply Fin.ext
  match a with
  | ⟨0, _⟩ => show win0_2.index t (0 : Fin 2) * 1024 + 1 * q.val = q.val; omega
  | ⟨1, _⟩ => show win0_2.index t (1 : Fin 2) * 1024 + 1 * k.val = k.val; omega

theorem emb_scale (t : Fin cfg0.N) (q : Fin 1024) :
    ((cfg0.win 4).blk t).view.emb (ix2 (0 : Fin 1) q) = ix2 (0 : Fin 1) q := by
  obtain ⟨-, -, -, -, e0, e1, -⟩ := idx_fixed t
  funext a; apply Fin.ext
  match a with
  | ⟨0, _⟩ => show win0_4.index t (0 : Fin 2) * 1 + 1 * 0 = 0; omega
  | ⟨1, _⟩ => show win0_4.index t (1 : Fin 2) * 1024 + 1 * q.val = q.val; omega

theorem emb_shift (t : Fin cfg0.N) (q : Fin 1024) :
    ((cfg0.win 5).blk t).view.emb (ix2 (0 : Fin 1) q) = ix2 (0 : Fin 1) q := by
  obtain ⟨-, -, -, -, -, -, e0, e1⟩ := idx_fixed t
  funext a; apply Fin.ext
  match a with
  | ⟨0, _⟩ => show win0_5.index t (0 : Fin 2) * 1 + 1 * 0 = 0; omega
  | ⟨1, _⟩ => show win0_5.index t (1 : Fin 2) * 1024 + 1 * q.val = q.val; omega

/-! ## Each window's block at a point, read at an index -/

theorem blk_tok (c : Dev nD) (t : Fin cfg0.N) (p : Fin 512) (k : Fin 1024) :
    iblk m c 0 t (ix2 p k) = m ((c : Thread nD τ).loc main_arg0) (ix2 (row t p) k) := by
  show V m c main_arg0 (((cfg0.win 0).blk t).view.emb (ix2 p k)) = _
  rw [emb_tok, V_main_arg0]

theorem blk_noise (c : Dev nD) (t : Fin cfg0.N) (p : Fin 512) (q : Fin 1024) :
    iblk m c 3 t (ix2 p q) = m ((c : Thread nD τ).loc main_arg4) (ix2 (row t p) q) := by
  show V m c main_arg4 (((cfg0.win 3).blk t).view.emb (ix2 p q)) = _
  rw [emb_noise, V_main_arg4]

theorem blk_wmean (c : Dev nD) (t : Fin cfg0.N) (q k : Fin 1024) :
    iblk m c 1 t (ix2 q k)
      = Cert.ReferenceIdeal.Read.val_main_v14 (F := Ideal) (m ((c : Thread nD τ).loc main_arg1)) (ix2 q k) := by
  show V m c main_v19 (((cfg0.win 1).blk t).view.emb (ix2 q k)) = _
  rw [emb_wmean]
  exact congrFun (V_wmean m c) _

theorem blk_wvar (c : Dev nD) (t : Fin cfg0.N) (q k : Fin 1024) :
    iblk m c 2 t (ix2 q k)
      = Cert.ReferenceIdeal.Read.val_main_v18 (F := Ideal) (m ((c : Thread nD τ).loc main_arg1)) (ix2 q k) := by
  show V m c main_v20 (((cfg0.win 2).blk t).view.emb (ix2 q k)) = _
  rw [emb_wvar]
  exact congrFun (V_wvar m c) _

theorem blk_scale (c : Dev nD) (t : Fin cfg0.N) (q : Fin 1024) :
    iblk m c 4 t (ix2 (0 : Fin 1) q) = m ((c : Thread nD τ).loc main_arg2) (ix1 q) := by
  show V m c main_v21 (((cfg0.win 4).blk t).view.emb (ix2 (0 : Fin 1) q)) = _
  rw [emb_scale]
  exact (congrFun (V_scale m c) _).trans (shapeCast_a_1a_apply _ _ 0 q)

theorem blk_shift (c : Dev nD) (t : Fin cfg0.N) (q : Fin 1024) :
    iblk m c 5 t (ix2 (0 : Fin 1) q) = m ((c : Thread nD τ).loc main_arg3) (ix1 q) := by
  show V m c main_v22 (((cfg0.win 5).blk t).view.emb (ix2 (0 : Fin 1) q)) = _
  rw [emb_shift]
  exact (congrFun (V_shift m c) _).trans (shapeCast_a_1a_apply _ _ 0 q)

end Cert.Ternary.KernelWindows

end
-- ==== Proof.KernelValue.lean ====
/-
  The kernel's result array after the run is the specification.

  At grid point `t` the body stores one block of 512 rows; entry `(p, q)` of it is the layer's entry formula on row
  `p` of the token block, rows `q` of the two weight matrices, the noise at `(p, q)` and the scale and shift at `q`.
  Read through the windows this is entry `(512 t + p, q)` of the whole-array function `G` of the token argument, the two
  weight matrices of the logits argument, the noise argument and the scale and shift arguments: every point writes
  back ITS BLOCK OF ONE function.  The 64 blocks tile the 32768 rows (row `r` is in the block of point `r / 512`), so
  after the run the array is that function.
-/
import proofs.«167246_j36369783063105_2_alg».proof.Proof.Gen.KernelIdeal.Value
import proofs.«167246_j36369783063105_2_alg».proof.Proof.KernelPayload
import proofs.«167246_j36369783063105_2_alg».proof.Proof.KernelWindows

noncomputable section

namespace Cert.Ternary.KernelValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Ternary.KernelWindows

variable (m : (ℓ : Loc nD τ sig) → Buf (Elt Ideal) ℓ) (ρ : Dev nD → PrngReg)

/-- The result array as one function of core `c`'s argument arrays: `G` of the tokens, the reference's two weight
    matrices of the logits, the noise, the scale and the shift. -/
def result (c : Dev nD) : S32768x1024.Idx → EReal :=
  Cert.Ternary.G (m ((c : Thread nD τ).loc main_arg0))
    (Cert.ReferenceIdeal.Read.val_main_v14 (F := Ideal) (m ((c : Thread nD τ).loc main_arg1)))
    (Cert.ReferenceIdeal.Read.val_main_v18 (F := Ideal) (m ((c : Thread nD τ).loc main_arg1)))
    (m ((c : Thread nD τ).loc main_arg4)) (m ((c : Thread nD τ).loc main_arg2)) (m ((c : Thread nD τ).loc main_arg3))

theorem zeros : (![0, 0] : Fin 2 → Nat) = fun _ => 0 := funext fun a => by fin_cases a <;> rfl

/-- WHAT POINT `t` WRITES BACK is block `t` of `result`. -/
theorem flushed_eq (c : Dev nD) (t : Fin cfg0.N) :
    (dats m 0 c).flushed 6 t = ((cfg0.win 6).blk t).view.read (Elt Ideal) (result m c) := by
  rw [flushed6]
  unfold out0_6
  rw [View.canon_unit_zero zeros]
  simp only [View.ld_unit_zero (S := S512x1024) zeros, View.ld_unit_zero (S := S1024x1024) zeros,
    View.ld_unit_zero (S := S1x1024) zeros]
  funext j
  obtain ⟨p, q, rfl⟩ : ∃ (p : Fin 512) (q : Fin 1024), j = ix2 p q := ⟨j 0, j 1, eq_ix2 j⟩
  show k0_pay1 (iblk m c 0 t) (iblk m c 1 t) (iblk m c 2 t) (iblk m c 3 t) (iblk m c 4 t) (iblk m c 5 t) (ix2 p q)
    = result m c (((cfg0.win 6).blk t).view.emb (ix2 p q))
  rw [emb_out]
  refine (Cert.Ternary.Kernel.pay_apply _ _ _ _ _ _ p q).trans ?_
  simp only [blk_tok, blk_wmean, blk_wvar, blk_noise, blk_scale, blk_shift]
  rfl

/-- An index of the array is in point `t`'s block iff each coordinate is in the block's range on its axis. -/
theorem mem_blk (t : Fin cfg0.N) (i : S32768x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v23).slice (win0_6.rect t)).set ↔ _
  rw [View.set_slice_whole, Rect.mem_set_unit]
  exact Iff.rfl

/-- Every index of the array is in some point's block: row `r` in the block of point `r / 512`. -/
theorem cover (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  have hN : (i 0).val / 512 < cfg0.N := by show (i 0).val / 512 < 64; omega
  obtain ⟨-, -, -, -, e0, e1⟩ := idx_moving ⟨(i 0).val / 512, hN⟩
  refine ⟨⟨(i 0).val / 512, hN⟩, flush0_6 _, ?_⟩
  rw [mem_blk]
  intro a
  match a with
  | ⟨0, _⟩ =>
    show win0_6.index ⟨(i 0).val / 512, hN⟩ (0 : Fin 2) * 512 ≤ (i 0).val
      ∧ (i 0).val < win0_6.index ⟨(i 0).val / 512, hN⟩ (0 : Fin 2) * 512 + 512
    have e0' : win0_6.index ⟨(i 0).val / 512, hN⟩ (0 : Fin 2) = (i 0).val / 512 := e0
    omega
  | ⟨1, _⟩ =>
    show win0_6.index ⟨(i 0).val / 512, hN⟩ (1 : Fin 2) * 1024 ≤ (i 1).val
      ∧ (i 1).val < win0_6.index ⟨(i 0).val / 512, hN⟩ (1 : Fin 2) * 1024 + 1024
    omega

/-- THE ARRAY after the run is `result`. -/
theorem final (c : Dev nD) : (dats m 0 c).arrAt 6 cfg0.N = result m c :=
  (dats m 0 c).arrAt_eq_of_cover 6 (result m c) (fun t _ => flushed_eq m c t) cover

/-- The kernel's run re-posted: the result array at `result`, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Ternary.KernelValue

end
-- ==== Proof.RefValue.lean ====
/-
  The reference's result is the specification, where the inputs are reals.

  The reference computes the same two weight matrices, the same two products contracted over the input
  features, and the same scale and shift, but takes the root of the variance sum WITHOUT clamping it at zero.
  Read index by index: entry `(o, k)` of the variance matrix is the variance formula of the two logits of weight
  `(o, k)`; the two products at `(n, o)` are sums over `k` of row `n` of the tokens (or of their squares) times row `o`
  of a weight matrix; scale and shift are laid along the rows.  With real tokens and real logits the variance
  sum is not negative, so the unclamped root is the clamped one.
-/
import proofs.«167246_j36369783063105_2_alg».proof.Proof.Gen.ReferenceIdeal.Read
import proofs.«167246_j36369783063105_2_alg».proof.Proof.TernaryMath

noncomputable section

namespace Cert.Ternary.Ref

open Cert.ReferenceIdeal Cert.ReferenceIdeal.Gen Cert.ReferenceIdeal.Read Idealize.ShloMosaic Idealize.ShloMosaic.ValueIdx

/-- Where the magnitude logit of weight `(o, k)` sits in the logits array: slice 0 of the last axis. -/
theorem idx_mag (o k : Fin 1024) : idx_main_v6 (idx_main_v7 (ix2 o k)) = ix3 o k (0 : Fin 2) := by
  funext a; apply Fin.ext
  have ho := o.isLt; have hk := k.isLt
  match a with
  | ⟨0, _⟩ => show (o.val * 1024 + k.val) / 1024 = o.val; omega
  | ⟨1, _⟩ => show (o.val * 1024 + k.val) / 1 % 1024 = k.val; omega
  | ⟨2, _⟩ => rfl

/-- Where its sign logit sits: slice 1. -/
theorem idx_sgn (o k : Fin 1024) : idx_main_v8 (idx_main_v9 (ix2 o k)) = ix3 o k (1 : Fin 2) := by
  funext a; apply Fin.ext
  have ho := o.isLt; have hk := k.isLt
  match a with
  | ⟨0, _⟩ => show (o.val * 1024 + k.val) / 1024 = o.val; omega
  | ⟨1, _⟩ => show (o.val * 1024 + k.val) / 1 % 1024 = k.val; omega
  | ⟨2, _⟩ => rfl

/-- Entry `(o, k)` of the variance matrix is the variance formula of that weight's two logits. -/
theorem wvar_read (x1 : (⟨S1024x1024x2, .f32⟩ : BufTy).Contents (Elt Ideal)) (o k : Fin 1024) :
    val_main_v18 (F := Ideal) x1 (ix2 o k)
      = Cert.Ternary.wVar (x1 (ix3 o k (0 : Fin 2))) (x1 (ix3 o k (1 : Fin 2))) := by
  simp only [val_main_v18_apply, val_main_v17_apply, val_main_v16_apply, val_main_v15_apply, val_main_v13_apply,
    val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_v0_apply, val_main_cst_apply, val_main_cst_0_apply, val_main_cst_1_apply, val_main_cst_2_apply,
    idx_mag, idx_sgn]
  rfl

/-- THE REFERENCE'S RESULT IS `G` of the tokens, its own two weight matrices, the noise, the scale and the shift, when the
    tokens and the logits are reals. -/
theorem ref_eq (x0 : (⟨S32768x1024, .f32⟩ : BufTy).Contents (Elt Ideal)) (x1 : (⟨S1024x1024x2, .f32⟩ : BufTy).Contents (Elt Ideal))
    (x2 x3 : (⟨S1024, .f32⟩ : BufTy).Contents (Elt Ideal)) (x4 : (⟨S32768x1024, .f32⟩ : BufTy).Contents (Elt Ideal))
    (hx : ∀ i, ∃ r : ℝ, x0 i = (r : EReal)) (hw : ∀ i, ∃ r : ℝ, x1 i = (r : EReal)) :
    val_main_v30 (F := Ideal) x0 x1 x2 x3 x4
      = Cert.Ternary.G x0 (val_main_v14 (F := Ideal) x1) (val_main_v18 (F := Ideal) x1) x4 x2 x3 := by
  funext i
  obtain ⟨n, o, rfl⟩ : ∃ (n : Fin 32768) (o : Fin 1024), i = ix2 n o := ⟨i 0, i 1, eq_ix2 i⟩
  have hv : ∀ k : Fin 1024, ∃ v : ℝ, 0 ≤ v ∧ val_main_v18 (F := Ideal) x1 (ix2 o k) = (v : EReal) := fun k => by
    obtain ⟨r0, h0⟩ := hw (ix3 o k (0 : Fin 2))
    obtain ⟨r1, h1⟩ := hw (ix3 o k (1 : Fin 2))
    rw [wvar_read, h0, h1]
    exact Cert.Ternary.wVar_coe r0 r1
  rw [Cert.Ternary.G_ix2, Cert.Ternary.out_of_nonneg _ _ _ _ _ _
    (Cert.Ternary.var_nonneg (fun k => x0 (ix2 n k)) (fun k => val_main_v18 (F := Ideal) x1 (ix2 o k)) (fun k => hx _) hv)]
  have e1 : ∀ k, lidx_main_v19 (ix2 n o) k = ix2 n k := fun k => funext fun a => by
    match a with
    | ⟨0, _⟩ => rfl
    | ⟨1, _⟩ => rfl
  have e2 : ∀ k, ridx_main_v19 (ix2 n o) k = ix2 o k := fun k => funext fun a => by
    match a with
    | ⟨0, _⟩ => rfl
    | ⟨1, _⟩ => rfl
  have e3 : ∀ k, lidx_main_v21 (ix2 n o) k = ix2 n k := fun k => funext fun a => by
    match a with
    | ⟨0, _⟩ => rfl
    | ⟨1, _⟩ => rfl
  have e4 : ∀ k, ridx_main_v21 (ix2 n o) k = ix2 o k := fun k => funext fun a => by
    match a with
    | ⟨0, _⟩ => rfl
    | ⟨1, _⟩ => rfl
  have e5 : idx_main_v25 (idx_main_v26 (ix2 n o)) = ix1 o := funext fun a => by
    match a with
    | ⟨0, _⟩ => rfl
  have e6 : idx_main_v28 (idx_main_v29 (ix2 n o)) = ix1 o := funext fun a => by
    match a with
    | ⟨0, _⟩ => rfl
  rw [val_main_v30_apply, val_main_v27_apply, val_main_v24_apply, val_main_v19_apply, val_main_v23_apply,
    val_main_v22_apply, val_main_v21_apply, val_main_v26_apply, val_main_v25_apply, val_main_v29_apply,
    val_main_v28_apply]
  simp only [e1, e2, e3, e4, e5, e6, val_main_v20_apply, Ideal.addf_def, Ideal.mulf_def, Ideal.hostUnary_sqrt_def]

end Cert.Ternary.Ref

end
-- ==== Proof.lean ====
/-
  A stochastic ternary linear layer: a kernel tiled over the tokens against its reference, equal over the
  extended reals.

  Both programs turn the weight logits into a magnitude probability `p` and a sign factor `s = 2 q - 1` by the logistic
  function, form the weight mean `p s` and the weight variance `p - p² s²`, and return, for token `n` and output feature `o`,

      (Σ_k x[n,k] · mean[o,k]  +  sqrt (V) · noise[n,o]) · scale[o] + shift[o],     V = Σ_k x[n,k]² · var[o,k].

  The kernel computes the two weight matrices with the same host operations as the reference, then works through the
  tokens in 64 blocks of 512 rows, each block one pair of matrix products against the whole weight matrices; its
  roundings to a narrower float format on the way into the products are the identity on the extended reals, and a
  product into a zero accumulator is the plain sum.  The ONE difference between the programs is that the kernel takes
  `sqrt (max V 0)` where the reference takes `sqrt V`: on the extended reals the root of a negative number is a junk
  value, so the two agree exactly where `V ≥ 0`.  That is where the precondition is used: with real tokens and real
  logits the logistic values lie strictly between 0 and 1, so every weight variance `p (1 - p s²)` is a real that is
  not negative, every term `x² · var` is not negative, and so is their sum.

  The modules: TernaryMath (the arithmetic above and the specification `G`), FiniteInputs (the precondition gives real
  tokens and logits), KernelPayload (the body's stored value at an index), KernelWindows (what each window reads),
  KernelValue (the kernel's result array is `G`), RefValue (the reference's result is `G` where the inputs are real).
  The idealization rewrote nothing, so the kernel's idealized text is its own text read on the extended reals.
-/
import proofs.«167246_j36369783063105_2_alg».proof.Defs
import proofs.«167246_j36369783063105_2_alg».proof.Proof.Gen.Kernel
import proofs.«167246_j36369783063105_2_alg».proof.Proof.Gen.Kernel.Skeleton
import proofs.«167246_j36369783063105_2_alg».proof.Proof.Gen.Kernel.Launch
import proofs.«167246_j36369783063105_2_alg».proof.Proof.Gen.Kernel.Points
import proofs.«167246_j36369783063105_2_alg».proof.Proof.Gen.Kernel.Frame
import proofs.«167246_j36369783063105_2_alg».proof.Proof.Gen.KernelIdeal
import proofs.«167246_j36369783063105_2_alg».proof.Proof.Gen.KernelIdeal.Skeleton
import proofs.«167246_j36369783063105_2_alg».proof.Proof.Gen.KernelIdeal.Launch
import proofs.«167246_j36369783063105_2_alg».proof.Proof.Gen.KernelIdeal.Points
import proofs.«167246_j36369783063105_2_alg».proof.Proof.Gen.KernelIdeal.Frame
import proofs.«167246_j36369783063105_2_alg».proof.Proof.Gen.ReferenceIdeal
import proofs.«167246_j36369783063105_2_alg».proof.Proof.Gen.Pre_finite_inputs
import proofs.«167246_j36369783063105_2_alg».proof.Proof.Gen.KernelIdeal.Value
import proofs.«167246_j36369783063105_2_alg».proof.Proof.Gen.ReferenceIdeal.Run
import proofs.«167246_j36369783063105_2_alg».proof.Proof.Gen.ReferenceIdeal.Read
import proofs.«167246_j36369783063105_2_alg».proof.Proof.FiniteInputs
import proofs.«167246_j36369783063105_2_alg».proof.Proof.KernelValue
import proofs.«167246_j36369783063105_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the kernel's result array ends at `G` of the arguments, and the reference's
    result, a term of the SAME arguments, is `G` of them too because the precondition makes tokens and logits real. -/
theorem algebraic : Cert.algebraic_KernelIdeal_ReferenceIdeal := by
  intro m ρ m' ρ' hpre hagree
  refine ⟨fun c => Cert.Ternary.KernelValue.result m c, Cert.Ternary.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Ternary.Finite.reals _ _ _ _ _ (hpre c)
  rw [Cert.ReferenceIdeal.Read.val_main_v30_eq, (hagree c).1, (hagree c).2.1, (hagree c).2.2.1, (hagree c).2.2.2.1,
    (hagree c).2.2.2.2]
  exact Cert.Ternary.Ref.ref_eq _ _ _ _ _ hx hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
